-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S11008x4096 : Shape := ⟨2, ![11008, 4096]⟩
abbrev S11008x32 : Shape := ⟨2, ![11008, 32]⟩
abbrev S11008 : Shape := ⟨1, ![11008]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S11008x32 : S_.BroadcastsInDim S11008x32 (![] : Fin 0 → Fin S11008x32.rank)
  reducesTo_S11008x32_S_d0_1 : S11008x32.ReducesTo [0, 1] S_
  bcast_S_S11008 : S_.BroadcastsInDim S11008 (![] : Fin 0 → Fin S11008.rank)
  reducesTo_S11008_S_d0 : S11008.ReducesTo [0] S_

variable [Facts]

def fn {F : FTy → Type} [FloatOps F] (main_arg0 : FVec F S4x2048x4096 .f32) (main_arg1 : IVec S11008x4096 32) (main_arg2 : FVec F S11008x32 .f32) (main_arg3 : FVec F S11008 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S11008x32 .f32 := Host.absf main_arg2
  let main_cst_0 : FVec F S_ .f32 := constant S_ .f32 0x7F800000#32
  let main_v5 : FVec F S11008x32 .f32 := broadcastInDim S11008x32 ![] bcast_S_S11008x32 main_cst_0
  let main_v6 : IVec S11008x32 1 := cmpf .olt main_v4 main_v5
  let main_c_1 : IVec S_ 1 := constantI S_ 1 1#1
  let main_v7 : IVec S_ 1 := (fun x v => Host.reduce IntOp.andi x v reducesTo_S11008x32_S_d0_1 h_S_) main_v6 main_c_1
  let main_v8 : IVec S_ 1 := andi main_v3 main_v7
  let main_v9 : FVec F S11008 .f32 := Host.absf main_arg3
  let main_cst_2 : FVec F S_ .f32 := constant S_ .f32 0x7F800000#32
  let main_v10 : FVec F S11008 .f32 := broadcastInDim S11008 ![] bcast_S_S11008 main_cst_2
  let main_v11 : IVec S11008 1 := cmpf .olt main_v9 main_v10
  let main_c_3 : IVec S_ 1 := constantI S_ 1 1#1
  let main_v12 : IVec S_ 1 := (fun x v => Host.reduce IntOp.andi x v reducesTo_S11008_S_d0 h_S_) main_v11 main_c_3
  let main_v13 : IVec S_ 1 := andi main_v8 main_v12
  main_v13
-- ==== Kernel.lean ====
abbrev S4x2048x4096 : Shape := ⟨3, ![4, 2048, 4096]⟩
abbrev S11008x4096 : Shape := ⟨2, ![11008, 4096]⟩
abbrev S11008x32 : Shape := ⟨2, ![11008, 32]⟩
abbrev S11008 : Shape := ⟨1, ![11008]⟩
abbrev S8192x4096 : Shape := ⟨2, ![8192, 4096]⟩
abbrev S1x11008 : Shape := ⟨2, ![1, 11008]⟩
abbrev S8192x11008 : Shape := ⟨2, ![8192, 11008]⟩
abbrev S512x4096 : Shape := ⟨2, ![512, 4096]⟩
abbrev S256x4096 : Shape := ⟨2, ![256, 4096]⟩
abbrev S256x32 : Shape := ⟨2, ![256, 32]⟩
abbrev S1x256 : Shape := ⟨2, ![1, 256]⟩
abbrev S512x256 : Shape := ⟨2, ![512, 256]⟩
abbrev S256x32x128 : Shape := ⟨3, ![256, 32, 128]⟩
abbrev S256x32x1 : Shape := ⟨3, ![256, 32, 1]⟩
abbrev S4x2048x11008 : Shape := ⟨3, ![4, 2048, 11008]⟩

abbrev nBuf : Space → Nat
  | .hbm => 8
  | .vmem => 10
  | .smem => 0
  | _ => 0

abbrev bufTy : (tb : Table) → Fin (tcTables nBuf tb) → BufTy
  | .hbm, ⟨0, _⟩ => ⟨S4x2048x4096, .f32⟩
  | .hbm, ⟨1, _⟩ => ⟨S11008x4096, .i32⟩
  | .hbm, ⟨2, _⟩ => ⟨S11008x32, .f32⟩
  | .hbm, ⟨3, _⟩ => ⟨S11008, .f32⟩
  | .hbm, ⟨4, _⟩ => ⟨S8192x4096, .f32⟩
  | .hbm, ⟨5, _⟩ => ⟨S1x11008, .f32⟩
  | .hbm, ⟨6, _⟩ => ⟨S8192x11008, .f32⟩
  | .hbm, ⟨7, _⟩ => ⟨S4x2048x11008, .f32⟩
  | .local _ .vmem, ⟨0, _⟩ => ⟨S512x4096, .f32⟩
  | .local _ .vmem, ⟨1, _⟩ => ⟨S512x4096, .f32⟩
  | .local _ .vmem, ⟨2, _⟩ => ⟨S256x4096, .i32⟩
  | .local _ .vmem, ⟨3, _⟩ => ⟨S256x4096, .i32⟩
  | .local _ .vmem, ⟨4, _⟩ => ⟨S256x32, .f32⟩
  | .local _ .vmem, ⟨5, _⟩ => ⟨S256x32, .f32⟩
  | .local _ .vmem, ⟨6, _⟩ => ⟨S1x256, .f32⟩
  | .local _ .vmem, ⟨7, _⟩ => ⟨S1x256, .f32⟩
  | .local _ .vmem, ⟨8, _⟩ => ⟨S512x256, .f32⟩
  | .local _ .vmem, ⟨9, _⟩ => ⟨S512x256, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 43], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S4x2048x4096_S8192x4096 : S4x2048x4096.ShapeCasts S8192x4096
  shapeCasts_S11008_S1x11008 : S11008.ShapeCasts S1x11008
  inb_S256x4096_S256x4096_0_0 : ∀ a, (![0, 0] : Fin 2 → Nat) a + S256x4096.size a ≤ S256x4096.size a
  h_S256x4096 : 0 < S256x4096.numel
  inb_S256x32_S256x32_0_0 : ∀ a, (![0, 0] : Fin 2 → Nat) a + S256x32.size a ≤ S256x32.size a
  h_S256x32 : 0 < S256x32.numel
  shapeCasts_S256x4096_S256x32x128 : S256x4096.ShapeCasts S256x32x128
  shapeCasts_S256x32_S256x32x1 : S256x32.ShapeCasts S256x32x1
  broadcasts_S256x32x1_S256x32x128 : S256x32x1.Broadcasts S256x32x128
  shapeCasts_S256x32x128_S256x4096 : S256x32x128.ShapeCasts S256x4096
  bitsLt_bf16_f32 : FTy.bits .bf16 < FTy.bits .f32
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  inb_S512x256_S512x256_0_0 : ∀ a, (![0, 0] : Fin 2 → Nat) a + S512x256.size a ≤ S512x256.size a
  h_S512x256 : 0 < S512x256.numel
  shapeCasts_S8192x11008_S4x2048x11008 : S8192x11008.ShapeCasts S4x2048x11008
  dot_S512x4096_S256x4096_S512x256_1_1_0_0_n_n_wf : DotDims.WF S512x4096 S256x4096 S512x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .f32 = 32 ∨ (Rect.block (s := S8192x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S11008x4096.size a
  hwx0_1 : ∀ i : grid0.Coords, EltTy.bits .i32 = 32 ∨ (Rect.block (s := S11008x4096) S256x4096.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x32.size a ≤ S11008x32.size a
  hwx0_2 : ∀ i : grid0.Coords, EltTy.bits .f32 = 32 ∨ (Rect.block (s := S11008x32) S256x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x11008.size a
  hwx0_3 : ∀ i : grid0.Coords, EltTy.bits .f32 = 32 ∨ (Rect.block (s := S1x11008) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x256.size a ≤ S8192x11008.size a
  hwx0_4 : ∀ i : grid0.Coords, EltTy.bits .f32 = 32 ∨ (Rect.block (s := S8192x11008) S512x256.size (cc0_transform_4 i) (hinb0_4 i)).WholeWords (EltTy.packing .f32)

variable [Facts₀]

def dot_S512x4096_S256x4096_S512x256_1_1_0_0_n_n : DotDims S512x4096 S256x4096 S512x256 where
  lhsContracting := [1]
  rhsContracting := [1]
  lhsNonContracting := [0]
  rhsNonContracting := [0]
  lhsBatch := []
  rhsBatch := []
  wf := dot_S512x4096_S256x4096_S512x256_1_1_0_0_n_n_wf

abbrev win0_0 : Pipeline.Window sig grid0 :=
  Pipeline.Window.ofSpec (Memref.whole main_v0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S512x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S11008x4096 : Shape := ⟨2, ![11008, 4096]⟩
abbrev S11008x32 : Shape := ⟨2, ![11008, 32]⟩
abbrev S11008 : Shape := ⟨1, ![11008]⟩
abbrev S11008x32x128 : Shape := ⟨3, ![11008, 32, 128]⟩
abbrev S11008x32x1 : Shape := ⟨3, ![11008, 32, 1]⟩
abbrev S4x2048x11008 : Shape := ⟨3, ![4, 2048, 11008]⟩
abbrev S1x1x11008 : Shape := ⟨3, ![1, 1, 11008]⟩

abbrev nBuf : Space → Nat
  | .hbm => 14
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S11008x4096, .i32⟩
  | .hbm, ⟨2, _⟩ => ⟨S11008x32, .f32⟩
  | .hbm, ⟨3, _⟩ => ⟨S11008, .f32⟩
  | .hbm, ⟨4, _⟩ => ⟨S11008x32x128, .i32⟩
  | .hbm, ⟨5, _⟩ => ⟨S11008x32x128, .f32⟩
  | .hbm, ⟨6, _⟩ => ⟨S11008x32x1, .f32⟩
  | .hbm, ⟨7, _⟩ => ⟨S11008x32x128, .f32⟩
  | .hbm, ⟨8, _⟩ => ⟨S11008x32x128, .f32⟩
  | .hbm, ⟨9, _⟩ => ⟨S11008x4096, .f32⟩
  | .hbm, ⟨10, _⟩ => ⟨S4x2048x11008, .f32⟩
  | .hbm, ⟨11, _⟩ => ⟨S1x1x11008, .f32⟩
  | .hbm, ⟨12, _⟩ => ⟨S4x2048x11008, .f32⟩
  | .hbm, ⟨13, _⟩ => ⟨S4x2048x11008, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]

class Facts₀ : Prop where
  shapeCasts_S11008x4096_S11008x32x128 : S11008x4096.ShapeCasts S11008x32x128
  bcast_S11008x32_S11008x32x1_0_1 : S11008x32.BroadcastsInDim S11008x32x1 (![0, 1] : Fin 2 → Fin S11008x32x1.rank)
  bcast_S11008x32x1_S11008x32x128_0_1_2 : S11008x32x1.BroadcastsInDim S11008x32x128 (![0, 1, 2] : Fin 3 → Fin S11008x32x128.rank)
  shapeCasts_S11008x32x128_S11008x4096 : S11008x32x128.ShapeCasts S11008x4096
  bcast_S11008_S1x1x11008_2 : S11008.BroadcastsInDim S1x1x11008 (![2] : Fin 1 → Fin S1x1x11008.rank)
  bcast_S1x1x11008_S4x2048x11008_0_1_2 : S1x1x11008.BroadcastsInDim S4x2048x11008 (![0, 1, 2] : Fin 3 → Fin S4x2048x11008.rank)
  dot_S4x2048x4096_S11008x4096_S4x2048x11008_2_1_01_0_n_n_wf : DotDims.WF S4x2048x4096 S11008x4096 S4x2048x11008 [2] [1] [0, 1] [0] [] []

variable [Facts₀]

def dot_S4x2048x4096_S11008x4096_S4x2048x11008_2_1_01_0_n_n : DotDims S4x2048x4096 S11008x4096 S4x2048x11008 where
  lhsContracting := [2]
  rhsContracting := [1]
  lhsNonContracting := [0, 1]
  rhsNonContracting := [0]
  lhsBatch := []
  rhsBatch := []
  wf := dot_S4x2048x4096_S11008x4096_S4x2048x11008_2_1_01_0_n_n_wf

class Facts : Prop extends Facts₀ where

variable [Facts]
-- ==== Proof.LibRowProducts.lean ====
/-
  Products of the rows of two matrices, on the extended reals.

  General lemma, for any extents: the product of an `M × K` matrix `A` with the transpose of an `N × K` matrix `B`
  — both operands contracted along their second axis — into a zero accumulator, read at `(i, j)`, is the sum over
  `l` of `A (i, l) · B (j, l)`: the inner product of row `i` of `A` with row `j` of `B`.  Indices are built
  from their coordinates (`ix2`), so the lemma rewrites a term at a literal position.
-/
import Idealize.ShloMosaic.PureOps.Ideal.Laws
import Idealize.ShloMosaic.Lib.ValueIdx

noncomputable section

open Idealize.ShloMosaic Idealize.ShloMosaic.ValueIdx

namespace Cert.RowProducts

/-- A product of an `M × K` matrix with the transpose of an `N × K` matrix into a zero accumulator, read at
    `(i, j)`: the sum over the contracted position `l` of `A (i, l) · B (j, l)`.  The four hypotheses say which
    coordinate of each operand index is the row and which the contracted position; at a literal record each holds
    by computation. -/
theorem matmul_transposed_zero_apply {M K N : Nat} {φ₁ φ₂ : FTy} (d : DotDims ⟨2, ![M, K]⟩ ⟨2, ![N, K]⟩ ⟨2, ![M, N]⟩)
    (hr : d.contr.rank = 1) (hs : d.contr.size ⟨0, by omega⟩ = K)
    (hl0 : ∀ j k, (d.lhsIdx j k 0).val = (j 0).val) (hl1 : ∀ j k, (d.lhsIdx j k 1).val = (k ⟨0, by omega⟩).val)
    (hr0 : ∀ j k, (d.rhsIdx j k 0).val = (j 1).val) (hr1 : ∀ j k, (d.rhsIdx j k 1).val = (k ⟨0, by omega⟩).val)
    (A : FVec Ideal ⟨2, ![M, K]⟩ φ₁) (B : FVec Ideal ⟨2, ![N, K]⟩ φ₂) (i : Fin M) (j : Fin N) :
    matmul d none A B (constant ⟨2, ![M, N]⟩ .f32 0x00000000#32) (ix2 i j) = ∑ l : Fin K, A (ix2 i l) * B (ix2 j l) := by
  show FloatOps.matmul d none A B (constant ⟨2, ![M, N]⟩ .f32 0x00000000#32) (ix2 i j) = _
  rw [Ideal.matmul_constant_zero_apply, ← Equiv.sum_comp (contrEquiv1 d K hr hs).symm]
  refine Finset.sum_congr rfl fun l _ => ?_
  have e1 : d.lhsIdx (ix2 i j) ((contrEquiv1 d K hr hs).symm l) = ix2 i l := by
    funext a; apply Fin.ext
    match a with
    | ⟨0, _⟩ => exact hl0 _ _
    | ⟨1, _⟩ => exact (hl1 _ _).trans (contrEquiv1_symm_val d K hr hs l)
  have e2 : d.rhsIdx (ix2 i j) ((contrEquiv1 d K hr hs).symm l) = ix2 j l := by
    funext a; apply Fin.ext
    match a with
    | ⟨0, _⟩ => exact hr0 _ _
    | ⟨1, _⟩ => exact (hr1 _ _).trans (contrEquiv1_symm_val d K hr hs l)
  rw [e1, e2]

end Cert.RowProducts

end
-- ==== Proof.LibLaneGroups.lean ====
/-
  The lanes of a matrix taken in groups, read at an index (general, any extents).

  A row of `n = g·e` lanes is `g` groups of `e` consecutive lanes: lane `l` is lane `k` of group `j` exactly when
  `l = j·e + k`.  Row-major, the matrix `[a, n]` and the three-axis array `[a, g, e]` hold the same entry at `(r, l)`
  and at `(r, j, k)`: both sit at position `(r·g + j)·e + k`.  A quantity given once per group is a matrix `[a, g]`; to
  meet the lanes it is viewed as `[a, g, 1]` and repeated along the last axis.
  * `split_apply`:  the cast `[a, n] → [a, g, e]` read at `(r, j, k)` is the matrix at `(r, l)`;
  * `merge_apply`:  the cast `[a, g, e] → [a, n]` read at `(r, l)` is the array at `(r, j, k)`;
  * `column_apply`: the cast `[a, g] → [a, g, 1]` read at `(r, j, z)` is the matrix at `(r, j)`;
  * `spread_apply`: the broadcast `[a, g, 1] → [a, g, e]` read at `(r, j, k)` is the column at `(r, j, 0)`;
  * `scaled_apply`: on the extended reals, a matrix multiplied lane by lane with a per-group factor, through those four
    layout steps, holds at `(r, l)` the product of the matrix entry `(r, l)` and the factor of row `r`, group `j`.
-/
import Idealize.ShloMosaic.Lib.Pipeline.Value
import Idealize.ShloMosaic.Lib.ValueIdx

noncomputable section

namespace Cert.LaneGroups

open Idealize.ShloMosaic Idealize.ShloMosaic.ValueIdx

section Layout
variable {α : Type}

/-- A matrix of `n = g·e` lanes viewed as `g` groups of `e`: entry `(r, j, k)` is the matrix entry `(r, l)` with
    `l = j·e + k`. -/
theorem split_apply {a g e n : ℕ} (x : (⟨2, ![a, n]⟩ : Shape).Idx → α)
    (h : (⟨2, ![a, n]⟩ : Shape).ShapeCasts ⟨3, ![a, g, e]⟩) (hn : n = g * e) (r : Fin a) (j : Fin g) (k : Fin e)
    (l : Fin n) (hl : l.val = j.val * e + k.val) :
    shapeCast ⟨3, ![a, g, e]⟩ x h (ix3 r j k) = x (ix2 r l) :=
  shapeCast_apply x h _ _ (by
    rw [Shape.rowMajor_val_two, Shape.rowMajor_val_three]
    show r.val * n + l.val = (r.val * g + j.val) * e + k.val
    rw [hl, hn]; ring)

/-- The groups laid side by side again: entry `(r, l)` of the matrix is the array entry `(r, j, k)` with
    `l = j·e + k`. -/
theorem merge_apply {a g e n : ℕ} (x : (⟨3, ![a, g, e]⟩ : Shape).Idx → α)
    (h : (⟨3, ![a, g, e]⟩ : Shape).ShapeCasts ⟨2, ![a, n]⟩) (hn : n = g * e) (r : Fin a) (l : Fin n) (j : Fin g)
    (k : Fin e) (hl : l.val = j.val * e + k.val) :
    shapeCast ⟨2, ![a, n]⟩ x h (ix2 r l) = x (ix3 r j k) :=
  shapeCast_apply x h _ _ (by
    rw [Shape.rowMajor_val_three, Shape.rowMajor_val_two]
    show (r.val * g + j.val) * e + k.val = r.val * n + l.val
    rw [hl, hn]; ring)

/-- One value per group, viewed with a trailing unit axis: entry `(r, j, z)` is the matrix entry `(r, j)`. -/
theorem column_apply {a g : ℕ} (x : (⟨2, ![a, g]⟩ : Shape).Idx → α)
    (h : (⟨2, ![a, g]⟩ : Shape).ShapeCasts ⟨3, ![a, g, 1]⟩) (r : Fin a) (j : Fin g) (z : Fin 1) :
    shapeCast ⟨3, ![a, g, 1]⟩ x h (ix3 r j z) = x (ix2 r j) :=
  shapeCast_apply x h _ _ (by
    rw [Shape.rowMajor_val_two, Shape.rowMajor_val_three]
    show r.val * g + j.val = (r.val * g + j.val) * 1 + z.val
    have hz : z.val = 0 := by have := z.isLt; omega
    rw [hz, Nat.mul_one, Nat.add_zero])

/-- The per-group value repeated along the lanes of its group: entry `(r, j, k)` is the column entry `(r, j, 0)`. -/
theorem spread_apply {a g e : ℕ} (x : (⟨3, ![a, g, 1]⟩ : Shape).Idx → α)
    (h : (⟨3, ![a, g, 1]⟩ : Shape).Broadcasts ⟨3, ![a, g, e]⟩) (r : Fin a) (j : Fin g) (k : Fin e) :
    broadcastTo ⟨3, ![a, g, e]⟩ x h (ix3 r j k) = x (ix3 r j (0 : Fin 1)) :=
  broadcastTo_apply x h (ix3 r j k) (ix3 r j (0 : Fin 1)) (fun ax => by
    match ax with
    | ⟨0, _⟩ =>
      show r.val = if a = 1 then 0 else r.val
      have := r.isLt
      split <;> omega
    | ⟨1, _⟩ =>
      show j.val = if g = 1 then 0 else j.val
      have := j.isLt
      split <;> omega
    | ⟨2, _⟩ => rfl)

end Layout

/-- On the extended reals: a matrix `Q` of `n = g·e` lanes multiplied, lane by lane, with a factor `S` given once per
    row and group — `Q` split into groups, `S` viewed as a column per group and spread along the group's lanes, the
    product, the groups merged — holds at `(r, l)` the product `Q (r, l) · S (r, j)`, `j` the group of lane `l`. -/
theorem scaled_apply {a g e n : ℕ} {φ : FTy} (Q : FVec Ideal ⟨2, ![a, n]⟩ φ) (S : FVec Ideal ⟨2, ![a, g]⟩ φ)
    (h1 : (⟨2, ![a, n]⟩ : Shape).ShapeCasts ⟨3, ![a, g, e]⟩) (h2 : (⟨2, ![a, g]⟩ : Shape).ShapeCasts ⟨3, ![a, g, 1]⟩)
    (h3 : (⟨3, ![a, g, 1]⟩ : Shape).Broadcasts ⟨3, ![a, g, e]⟩) (h4 : (⟨3, ![a, g, e]⟩ : Shape).ShapeCasts ⟨2, ![a, n]⟩)
    (hn : n = g * e) (r : Fin a) (l : Fin n) (j : Fin g) (k : Fin e) (hl : l.val = j.val * e + k.val) :
    shapeCast ⟨2, ![a, n]⟩ (mulf (shapeCast ⟨3, ![a, g, e]⟩ Q h1)
        (broadcastTo ⟨3, ![a, g, e]⟩ (shapeCast ⟨3, ![a, g, 1]⟩ S h2) h3)) h4 (ix2 r l)
      = Q (ix2 r l) * S (ix2 r j) := by
  rw [merge_apply _ h4 hn r l j k hl, mulf_apply, split_apply Q h1 hn r j k l hl, spread_apply _ h3 r j k,
    column_apply S h2 r j (0 : Fin 1)]

end Cert.LaneGroups

end
-- ==== Proof.Dequant.lean ====
/-
  The quantized linear layer, as one function of its four arguments.

  The weight is stored as integers `q (o, l)` with one scale `s (o, j)` per output row `o` and per group `j` of 128
  consecutive input lanes; lane `l` belongs to group `l / 128`.  The dequantized weight is
  `w (o, l) = q (o, l) · s (o, l / 128)` (the integer read as a real), and the layer is
      y (b, t, o) = Σ_l x (b, t, l) · w (o, l) + bias (o).
  `linear` states this over the three-axis input `[4, 2048, 4096]`; `rows` states the same sum over the input
  flattened to a matrix of 8192 rows and the bias as a `[1, 11008]` row — the form a computation tiled over rows and
  output columns produces.  Nothing here depends on either program.
-/
import Idealize.ShloMosaic.Lib.ValueIdx

noncomputable section

open scoped BigOperators

namespace Cert.QuantLinear

open Idealize.ShloMosaic Idealize.ShloMosaic.ValueIdx

/-- The group of 128 lanes that lane `l` belongs to. -/
def grp (l : Fin 4096) : Fin 32 := ⟨l.val / 128, by have := l.isLt; omega⟩

/-- The position of lane `l` inside its group. -/
def lane (l : Fin 4096) : Fin 128 := ⟨l.val % 128, Nat.mod_lt _ (by decide)⟩

/-- A lane is its group's first lane plus its position in the group. -/
theorem lane_split (l : Fin 4096) : l.val = (grp l).val * 128 + (lane l).val := by
  show l.val = l.val / 128 * 128 + l.val % 128
  omega

/-- Entry `(o, l)` of the dequantized weight: the stored integer times the scale of its row and group. -/
def weight (Q : Vec Ideal ⟨2, ![11008, 4096]⟩ .i32) (S : FVec Ideal ⟨2, ![11008, 32]⟩ .f32) (o : Fin 11008)
    (l : Fin 4096) : EReal :=
  FloatOps.sitofp (F := Ideal) .f32 (Q (ix2 o l)) * S (ix2 o (grp l))

/-- Row `r`, column `o` of the layer over a matrix input: the inner product of input row `r` with weight row `o`,
    plus the bias of column `o`. -/
def rowsAt (X : FVec Ideal ⟨2, ![8192, 4096]⟩ .f32) (Q : Vec Ideal ⟨2, ![11008, 4096]⟩ .i32)
    (S : FVec Ideal ⟨2, ![11008, 32]⟩ .f32) (B : FVec Ideal ⟨2, ![1, 11008]⟩ .f32) (r : Fin 8192) (o : Fin 11008) : EReal :=
  (∑ l : Fin 4096, X (ix2 r l) * weight Q S o l) + B (ix2 (0 : Fin 1) o)

/-- The layer over a matrix input, as an `[8192, 11008]` array. -/
def rows (X : FVec Ideal ⟨2, ![8192, 4096]⟩ .f32) (Q : Vec Ideal ⟨2, ![11008, 4096]⟩ .i32)
    (S : FVec Ideal ⟨2, ![11008, 32]⟩ .f32) (B : FVec Ideal ⟨2, ![1, 11008]⟩ .f32) : FVec Ideal ⟨2, ![8192, 11008]⟩ .f32 :=
  fun i => rowsAt X Q S B (i 0) (i 1)

/-- Entry `(b, t, o)` of the layer over the three-axis input. -/
def linearAt (x : FVec Ideal ⟨3, ![4, 2048, 4096]⟩ .f32) (Q : Vec Ideal ⟨2, ![11008, 4096]⟩ .i32)
    (S : FVec Ideal ⟨2, ![11008, 32]⟩ .f32) (bias : FVec Ideal ⟨1, ![11008]⟩ .f32) (b : Fin 4) (t : Fin 2048)
    (o : Fin 11008) : EReal :=
  (∑ l : Fin 4096, x (ix3 b t l) * weight Q S o l) + bias (ix1 o)

/-- The layer, as a `[4, 2048, 11008]` array. -/
def linear (x : FVec Ideal ⟨3, ![4, 2048, 4096]⟩ .f32) (Q : Vec Ideal ⟨2, ![11008, 4096]⟩ .i32)
    (S : FVec Ideal ⟨2, ![11008, 32]⟩ .f32) (bias : FVec Ideal ⟨1, ![11008]⟩ .f32) : FVec Ideal ⟨3, ![4, 2048, 11008]⟩ .f32 :=
  fun i => linearAt x Q S bias (i 0) (i 1) (i 2)

theorem rows_apply (X : FVec Ideal ⟨2, ![8192, 4096]⟩ .f32) (Q : Vec Ideal ⟨2, ![11008, 4096]⟩ .i32)
    (S : FVec Ideal ⟨2, ![11008, 32]⟩ .f32) (B : FVec Ideal ⟨2, ![1, 11008]⟩ .f32) (r : Fin 8192) (o : Fin 11008) :
    rows X Q S B (ix2 r o) = rowsAt X Q S B r o := rfl

theorem linear_apply (x : FVec Ideal ⟨3, ![4, 2048, 4096]⟩ .f32) (Q : Vec Ideal ⟨2, ![11008, 4096]⟩ .i32)
    (S : FVec Ideal ⟨2, ![11008, 32]⟩ .f32) (bias : FVec Ideal ⟨1, ![11008]⟩ .f32) (b : Fin 4) (t : Fin 2048)
    (o : Fin 11008) :
    linear x Q S bias (ix3 b t o) = linearAt x Q S bias b t o := rfl

end Cert.QuantLinear

end
-- ==== Proof.Block.lean ====
/-
  What one grid point computes, read at an entry.

  A grid point holds a block of 512 input rows `Xb`, a block of 256 weight rows as stored integers `Qb` with their
  scales `Sb` (one per row and group of 128 lanes), and the 256 matching bias entries `Bb` as a row.  It dequantizes the
  weight block (integers to reals, times the scale of the lane's group), multiplies the input block with the
  TRANSPOSE of the weight block into a zero accumulator, and adds the bias row to every row.  At the exact
  instance the two changes of float format on the way into the product are the identity, so entry `(p, c)` of the
  stored block is
      Σ_l Xb (p, l) · (Qb (c, l) · Sb (c, l / 128)) + Bb (0, c).
-/
import proofs.«142829_j4964982194264_1_alg».proof.Proof.Gen.KernelIdeal.Skeleton
import proofs.«142829_j4964982194264_1_alg».proof.Proof.LibRowProducts
import proofs.«142829_j4964982194264_1_alg».proof.Proof.LibLaneGroups
import proofs.«142829_j4964982194264_1_alg».proof.Proof.Dequant
import Idealize.ShloMosaic.Lib.ValueLayout

noncomputable section

open scoped BigOperators

namespace Cert.KernelIdeal.Block

open Cert.KernelIdeal Cert.KernelIdeal.Gen Idealize.ShloMosaic Idealize.ShloMosaic.ValueIdx Cert.QuantLinear

/-- The contraction of the block product runs over one axis, of 4096 positions; on each operand the first
    coordinate is the row and the second the contracted position. -/
theorem dot_lhs_row (j : S512x256.Idx) (k : dot_S512x4096_S256x4096_S512x256_1_1_0_0_n_n.contr.Idx) :
    (dot_S512x4096_S256x4096_S512x256_1_1_0_0_n_n.lhsIdx j k 0).val = (j 0).val := by
  unfold DotDims.lhsIdx
  rw [dif_neg (show ¬(0 : Fin S512x4096.rank) ∈ dot_S512x4096_S256x4096_S512x256_1_1_0_0_n_n.lhsBatch by decide),
    dif_pos (show (0 : Fin S512x4096.rank) ∈ dot_S512x4096_S256x4096_S512x256_1_1_0_0_n_n.lhsNonContracting by decide)]
  rfl
theorem dot_lhs_pos (j : S512x256.Idx) (k : dot_S512x4096_S256x4096_S512x256_1_1_0_0_n_n.contr.Idx) :
    (dot_S512x4096_S256x4096_S512x256_1_1_0_0_n_n.lhsIdx j k 1).val = (k ⟨0, by decide⟩).val :=
  dot_S512x4096_S256x4096_S512x256_1_1_0_0_n_n.lhsIdx_val_of_single rfl j k
theorem dot_rhs_row (j : S512x256.Idx) (k : dot_S512x4096_S256x4096_S512x256_1_1_0_0_n_n.contr.Idx) :
    (dot_S512x4096_S256x4096_S512x256_1_1_0_0_n_n.rhsIdx j k 0).val = (j 1).val := by
  unfold DotDims.rhsIdx
  rw [dif_neg (show ¬(0 : Fin S256x4096.rank) ∈ dot_S512x4096_S256x4096_S512x256_1_1_0_0_n_n.rhsBatch by decide),
    dif_pos (show (0 : Fin S256x4096.rank) ∈ dot_S512x4096_S256x4096_S512x256_1_1_0_0_n_n.rhsNonContracting by decide)]
  rfl
theorem dot_rhs_pos (j : S512x256.Idx) (k : dot_S512x4096_S256x4096_S512x256_1_1_0_0_n_n.contr.Idx) :
    (dot_S512x4096_S256x4096_S512x256_1_1_0_0_n_n.rhsIdx j k 1).val = (k ⟨0, by decide⟩).val :=
  dot_S512x4096_S256x4096_S512x256_1_1_0_0_n_n.rhsIdx_val_of_single rfl j k

/-- The block product plus a row-wise term, at `(p, c)`: the inner product of row `p` of the left operand with row `c`
    of the right operand, plus the term's entry. -/
theorem product_plus_apply (A : FVec Ideal S512x4096 .bf16) (W : FVec Ideal S256x4096 .bf16) (R : FVec Ideal S512x256 .f32)
    (p : Fin 512) (c : Fin 256) :
    addf (matmul dot_S512x4096_S256x4096_S512x256_1_1_0_0_n_n none A W (constant S512x256 .f32 0x00000000#32)) R (ix2 p c)
      = (∑ l : Fin 4096, A (ix2 p l) * W (ix2 c l)) + R (ix2 p c) := by
  rw [addf_apply, Cert.RowProducts.matmul_transposed_zero_apply dot_S512x4096_S256x4096_S512x256_1_1_0_0_n_n rfl rfl
    dot_lhs_row dot_lhs_pos dot_rhs_row dot_rhs_pos A W p c]

/-- The dequantized weight block at `(c, l)`: the stored integer, as a real, times the scale of row `c` and of the
    group of lane `l`. -/
theorem weight_block_apply (Qb : Vec Ideal S256x4096 .i32) (Sb : Vec Ideal S256x32 .f32) (c : Fin 256) (l : Fin 4096) :
    shapeCast S256x4096 (mulf (shapeCast S256x32x128 (sitofp (F := Ideal) .f32 Qb) shapeCasts_S256x4096_S256x32x128)
        (broadcastTo S256x32x128 (shapeCast S256x32x1 Sb shapeCasts_S256x32_S256x32x1) broadcasts_S256x32x1_S256x32x128))
        shapeCasts_S256x32x128_S256x4096 (ix2 c l)
      = FloatOps.sitofp (F := Ideal) .f32 (Qb (ix2 c l)) * Sb (ix2 c (grp l)) :=
  Cert.LaneGroups.scaled_apply (sitofp (F := Ideal) .f32 Qb) Sb _ _ _ _ rfl c l (grp l) (lane l) (lane_split l)

/-- THE STORED BLOCK at `(p, c)`. -/
theorem payload_apply (Qb : Vec Ideal S256x4096 .i32) (Sb : Vec Ideal S256x32 .f32) (Xb : Vec Ideal S512x4096 .f32)
    (Bb : Vec Ideal S1x256 .f32) (p : Fin 512) (c : Fin 256) :
    k0_pay1 (F := Ideal) Qb Sb Xb Bb (ix2 p c)
      = (∑ l : Fin 4096, Xb (ix2 p l) * (FloatOps.sitofp (F := Ideal) .f32 (Qb (ix2 c l)) * Sb (ix2 c (grp l))))
        + Bb (ix2 (0 : Fin 1) c) := by
  unfold k0_pay1
  refine (product_plus_apply _ _ _ p c).trans ?_
  refine congrArg₂ (· + ·) (Finset.sum_congr rfl fun l _ => congrArg₂ (· * ·) ?_ ?_) ?_
  · rw [truncf_apply, shapeCast_self]
  · rw [truncf_apply]
    exact weight_block_apply Qb Sb c l
  · rw [broadcastTo_1b_ab_apply, shapeCast_self]

end Cert.KernelIdeal.Block

end
-- ==== Proof.Region.lean ====
/-
  The array the region leaves: the layer over rows, block by block.

  The grid has 16 × 43 points; point `t` = (i, j) = (t / 43, t % 43) works on rows `512 i … 512 i + 511` of the
  flattened input, on weight rows (and scale rows, and bias entries) `256 j … 256 j + 255`, and writes back block
  (i, j) of the `[8192, 11008]` result.  An entry `(r, o)` of the result depends only on input row `r` and on weight
  row, scale row and bias entry `o`; these sit in the blocks of the one point with `i = r / 512`, `j = o / 256`.  So
  every point writes back the block of ONE whole-array function (`rows` of the arrays as the region finds them), the
  blocks tile the result, and the result array ends holding that function.
-/
import proofs.«142829_j4964982194264_1_alg».proof.Proof.Gen.KernelIdeal.Frame
import proofs.«142829_j4964982194264_1_alg».proof.Proof.Block
import Idealize.ShloMosaic.Lib.Pipeline.Value

noncomputable section

open scoped BigOperators

namespace Cert.KernelIdeal.Region

open Cert.KernelIdeal Cert.KernelIdeal.Gen Idealize.ShloMosaic Idealize.ShloMosaic.TcCoe Idealize.SL.Sem
open Idealize.ShloMosaic.ValueIdx Cert.QuantLinear
open Idealize.ShloMosaic.Pipeline (Dat)

variable (m : (ℓ : Loc nD τ sig) → Buf (Elt Ideal) ℓ)

theorem zeros : (![0, 0] : Fin 2 → Nat) = fun _ => 0 := funext fun a => by fin_cases a <;> rfl

/-- Which block of each array a point works on, relative to the block of the result it writes: the input's row
    block is the result's row block; the weight's, the scales' and the bias's block is the result's column block;
    every window spans its array's other axis whole.  The result's block (i, j) is the point's two coordinates. -/
theorem block_indices : ∀ t : Fin cfg0.N,
    win0_0.index t (0 : Fin 2) = win0_4.index t (0 : Fin 2) ∧ win0_0.index t (1 : Fin 2) = 0
    ∧ win0_1.index t (0 : Fin 2) = win0_4.index t (1 : Fin 2) ∧ win0_1.index t (1 : Fin 2) = 0
    ∧ win0_2.index t (0 : Fin 2) = win0_4.index t (1 : Fin 2) ∧ win0_2.index t (1 : Fin 2) = 0
    ∧ win0_3.index t (0 : Fin 2) = 0 ∧ win0_3.index t (1 : Fin 2) = win0_4.index t (1 : Fin 2)
    ∧ win0_4.index t (0 : Fin 2) = t.val / 43 ∧ win0_4.index t (1 : Fin 2) = t.val % 43 :=
  (by decide +kernel : ∀ t : Fin grid0.N, _)

/-! ## Each input block, read where the result's block says -/

/-- Row `p` of the input block at point `t` is row `r = 512 i + p` of the flattened input. -/
theorem input_block_apply (c : Dev nD) (t : Fin cfg0.N) (p : Fin 512) (l : Fin 4096) (r : Fin 8192)
    (hr : r.val = win0_4.index t (0 : Fin 2) * 512 + p.val) :
    (iblk m c 0 t : Vec Ideal S512x4096 .f32) (ix2 p l) = (V m c main_v0 : Vec Ideal S8192x4096 .f32) (ix2 r l) := by
  obtain ⟨e0, e1, -⟩ := block_indices t
  unfold iblk
  rw [View.read_apply]
  show V m c main_v0 (((cfg0.win 0).blk t).view.emb (ix2 p l)) = V m c main_v0 (ix2 r l)
  refine congrArg (V m c main_v0) (funext fun a => Fin.ext ?_)
  match a with
  | ⟨0, _⟩ => show win0_0.index t (0 : Fin 2) * 512 + 1 * p.val = r.val; omega
  | ⟨1, _⟩ => show win0_0.index t (1 : Fin 2) * 4096 + 1 * l.val = l.val; omega

/-- Row `q` of the stored-weight block at point `t` is weight row `o = 256 j + q`. -/
theorem weight_block_apply (c : Dev nD) (t : Fin cfg0.N) (q : Fin 256) (l : Fin 4096) (o : Fin 11008)
    (ho : o.val = win0_4.index t (1 : Fin 2) * 256 + q.val) :
    (iblk m c 1 t : Vec Ideal S256x4096 .i32) (ix2 q l) = (V m c main_arg1 : Vec Ideal S11008x4096 .i32) (ix2 o l) := by
  obtain ⟨-, -, e2, e3, -⟩ := block_indices t
  unfold iblk
  rw [View.read_apply]
  show V m c main_arg1 (((cfg0.win 1).blk t).view.emb (ix2 q l)) = V m c main_arg1 (ix2 o l)
  refine congrArg (V m c main_arg1) (funext fun a => Fin.ext ?_)
  match a with
  | ⟨0, _⟩ => show win0_1.index t (0 : Fin 2) * 256 + 1 * q.val = o.val; omega
  | ⟨1, _⟩ => show win0_1.index t (1 : Fin 2) * 4096 + 1 * l.val = l.val; omega

/-- Row `q` of the scale block at point `t` is scale row `o = 256 j + q`. -/
theorem scale_block_apply (c : Dev nD) (t : Fin cfg0.N) (q : Fin 256) (g : Fin 32) (o : Fin 11008)
    (ho : o.val = win0_4.index t (1 : Fin 2) * 256 + q.val) :
    (iblk m c 2 t : Vec Ideal S256x32 .f32) (ix2 q g) = (V m c main_arg2 : Vec Ideal S11008x32 .f32) (ix2 o g) := by
  obtain ⟨-, -, -, -, e4, e5, -⟩ := block_indices t
  unfold iblk
  rw [View.read_apply]
  show V m c main_arg2 (((cfg0.win 2).blk t).view.emb (ix2 q g)) = V m c main_arg2 (ix2 o g)
  refine congrArg (V m c main_arg2) (funext fun a => Fin.ext ?_)
  match a with
  | ⟨0, _⟩ => show win0_2.index t (0 : Fin 2) * 256 + 1 * q.val = o.val; omega
  | ⟨1, _⟩ => show win0_2.index t (1 : Fin 2) * 32 + 1 * g.val = g.val; omega

/-- Entry `q` of the bias block at point `t` is bias entry `o = 256 j + q` of the bias row. -/
theorem bias_block_apply (c : Dev nD) (t : Fin cfg0.N) (q : Fin 256) (o : Fin 11008)
    (ho : o.val = win0_4.index t (1 : Fin 2) * 256 + q.val) :
    (iblk m c 3 t : Vec Ideal S1x256 .f32) (ix2 (0 : Fin 1) q) = (V m c main_v1 : Vec Ideal S1x11008 .f32) (ix2 (0 : Fin 1) o) := by
  obtain ⟨-, -, -, -, -, -, e6, e7, -⟩ := block_indices t
  unfold iblk
  rw [View.read_apply]
  show V m c main_v1 (((cfg0.win 3).blk t).view.emb (ix2 (0 : Fin 1) q)) = V m c main_v1 (ix2 (0 : Fin 1) o)
  refine congrArg (V m c main_v1) (funext fun a => Fin.ext ?_)
  match a with
  | ⟨0, _⟩ => show win0_3.index t (0 : Fin 2) * 1 + 1 * 0 = 0; omega
  | ⟨1, _⟩ => show win0_3.index t (1 : Fin 2) * 256 + 1 * q.val = o.val; omega

/-! ## What a point writes back -/

/-- The layer over rows, of the four arrays as the region finds them. -/
abbrev found (c : Dev nD) : FVec Ideal S8192x11008 .f32 :=
  rows (V m c main_v0) (V m c main_arg1) (V m c main_arg2) (V m c main_v1)

/-- WHAT POINT `t` WRITES BACK is block `t` of the layer over rows. -/
theorem flushed_eq (c : Dev nD) (t : Fin cfg0.N) :
    (dats m 0 c).flushed 4 t = ((cfg0.win 4).blk t).view.read (Elt Ideal) (found m c) := by
  show (cfg0.win 4).cut (grid0.coords t) ((dats m 0 c).after 4 t) = _
  rw [after0_4]
  unfold out0_4
  rw [View.canon_unit_zero zeros]
  simp only [View.ld_unit_zero (S := S256x4096) zeros, View.ld_unit_zero (S := S256x32) zeros,
    View.ld_unit_zero (S := S512x4096) zeros, View.ld_unit_zero (S := S1x256) zeros]
  have hN : cfg0.N = 688 := N_0
  have ht := t.isLt
  obtain ⟨-, -, -, -, -, -, -, -, e8, e9⟩ := block_indices t
  funext j
  obtain ⟨p, q, rfl⟩ : ∃ (p : Fin 512) (q : Fin 256), j = (ix2 p q : S512x256.Idx) :=
    ⟨j 0, j 1, eq_ix2 (n0 := 512) (n1 := 256) j⟩
  show k0_pay1 (F := Ideal) (iblk m c 1 t) (iblk m c 2 t) (iblk m c 0 t) (iblk m c 3 t) (ix2 p q)
      = found m c (((cfg0.win 4).blk t).view.emb (ix2 p q))
  obtain ⟨r, hr⟩ : ∃ r : Fin 8192, r.val = win0_4.index t (0 : Fin 2) * 512 + p.val :=
    ⟨⟨win0_4.index t (0 : Fin 2) * 512 + p.val, by have := p.isLt; omega⟩, rfl⟩
  obtain ⟨o, ho⟩ : ∃ o : Fin 11008, o.val = win0_4.index t (1 : Fin 2) * 256 + q.val :=
    ⟨⟨win0_4.index t (1 : Fin 2) * 256 + q.val, by have := q.isLt; omega⟩, rfl⟩
  have hemb : ((cfg0.win 4).blk t).view.emb (ix2 p q) = (ix2 r o : S8192x11008.Idx) := by
    funext a; apply Fin.ext
    match a with
    | ⟨0, _⟩ => show win0_4.index t (0 : Fin 2) * 512 + 1 * p.val = r.val; omega
    | ⟨1, _⟩ => show win0_4.index t (1 : Fin 2) * 256 + 1 * q.val = o.val; omega
  rw [hemb]
  show _ = rowsAt (V m c main_v0) (V m c main_arg1) (V m c main_arg2) (V m c main_v1) r o
  refine (Block.payload_apply (iblk m c 1 t) (iblk m c 2 t) (iblk m c 0 t) (iblk m c 3 t) p q).trans ?_
  unfold rowsAt weight
  refine congrArg₂ (· + ·) (Finset.sum_congr rfl fun l _ => ?_) (bias_block_apply m c t q o ho)
  rw [input_block_apply m c t p l r hr, weight_block_apply m c t q l o ho, scale_block_apply m c t q (grp l) o ho]

/-! ## The blocks tile the result -/

/-- An entry of the result is in point `t`'s block iff each coordinate is in the block's range on its axis. -/
theorem mem_block (t : Fin cfg0.N) (i : S8192x11008.Idx) :
    i ∈ ((cfg0.win 4).blk t).view.set ↔ ∀ a : Fin 2, win0_4.index t a * S512x256.size a ≤ (i a).val
      ∧ (i a).val < win0_4.index t a * S512x256.size a + S512x256.size a := by
  show i ∈ ((View.whole main_v2).slice (win0_4.rect t)).set ↔ _
  rw [View.set_slice_whole, Rect.mem_set_unit]
  exact Iff.rfl

/-- Entry `(r, o)` is in the block of the point (r / 512, o / 256), which writes its block back. -/
theorem covered (i : S8192x11008.Idx) :
    ∃ t : Fin cfg0.N, (cfg0.win 4).flush t = true ∧ i ∈ ((cfg0.win 4).blk t).view.set := by
  have hi0 : (i 0).val < 8192 := (i 0).isLt
  have hi1 : (i 1).val < 11008 := (i 1).isLt
  have hN : cfg0.N = 688 := N_0
  obtain ⟨t, ht⟩ : ∃ t : Fin cfg0.N, t.val = (i 0).val / 512 * 43 + (i 1).val / 256 :=
    ⟨⟨(i 0).val / 512 * 43 + (i 1).val / 256, by rw [hN]; omega⟩, rfl⟩
  obtain ⟨-, -, -, -, -, -, -, -, e8, e9⟩ := block_indices t
  refine ⟨t, flush0_4 t, ?_⟩
  rw [mem_block]
  intro a
  match a with
  | ⟨0, _⟩ =>
    show win0_4.index t (0 : Fin 2) * 512 ≤ (i 0).val ∧ (i 0).val < win0_4.index t (0 : Fin 2) * 512 + 512
    omega
  | ⟨1, _⟩ =>
    show win0_4.index t (1 : Fin 2) * 256 ≤ (i 1).val ∧ (i 1).val < win0_4.index t (1 : Fin 2) * 256 + 256
    omega

/-- THE RESULT ARRAY after the region: the layer over rows, of the arrays as the region finds them. -/
theorem result_array (c : Dev nD) : (dats m 0 c).arrAt 4 cfg0.N = found m c :=
  (dats m 0 c).arrAt_eq_of_cover 4 (found m c) (fun t _ => flushed_eq m c t) covered

end Cert.KernelIdeal.Region

end
-- ==== Proof.LibReshapeRows.lean ====
/-
  Merging and splitting the two leading axes of a three-axis array, read at an index.

  A row-major array of shape `[a, b, c]` and the matrix of shape `[a·b, c]` with the same row-major contents hold the
  same entry at `(i, j, k)` and at `(i·b + j, k)`: both sit at position `(i·b + j)·c + k`.  Stated for any extents,
  with the row count `n` a separate number (so that a literal such as 16384 is matched as written) tied to `a` and `b`
  only through the row equation `r = i·b + j`.
-/
import Idealize.ShloMosaic.Lib.Pipeline.Value
import Idealize.ShloMosaic.Lib.ValueIdx

namespace Cert.ReshapeRows

open Idealize.ShloMosaic Idealize.ShloMosaic.ValueIdx

variable {α : Type}

/-- An `[a, b, c]` array reshaped to a matrix of `n` rows reads, at `(r, k)` with `r = i·b + j`, the array's entry
    `(i, j, k)`. -/
theorem merge_apply {a b c n : ℕ} (x : (⟨3, ![a, b, c]⟩ : Shape).Idx → α)
    (h : (⟨3, ![a, b, c]⟩ : Shape).ShapeCasts ⟨2, ![n, c]⟩) (r : Fin n) (k : Fin c) (i : Fin a) (j : Fin b)
    (hr : r.val = i.val * b + j.val) :
    shapeCast ⟨2, ![n, c]⟩ x h (ix2 r k) = x (ix3 i j k) :=
  shapeCast_apply x h _ _ (by
    rw [Shape.rowMajor_val_three, Shape.rowMajor_val_two]
    show (i.val * b + j.val) * c + k.val = r.val * c + k.val
    rw [hr])

/-- A matrix of `n` rows reshaped to `[a, b, c]` reads, at `(i, j, k)`, the matrix's entry `(r, k)` with
    `r = i·b + j`. -/
theorem split_apply {a b c n : ℕ} (y : (⟨2, ![n, c]⟩ : Shape).Idx → α)
    (h : (⟨2, ![n, c]⟩ : Shape).ShapeCasts ⟨3, ![a, b, c]⟩) (i : Fin a) (j : Fin b) (k : Fin c) (r : Fin n)
    (hr : r.val = i.val * b + j.val) :
    shapeCast ⟨3, ![a, b, c]⟩ y h (ix3 i j k) = y (ix2 r k) :=
  shapeCast_apply y h _ _ (by
    rw [Shape.rowMajor_val_three, Shape.rowMajor_val_two]
    show r.val * c + k.val = (i.val * b + j.val) * c + k.val
    rw [hr])

end Cert.ReshapeRows
-- ==== Proof.Flatten.lean ====
/-
  Flattening the batch and sequence axes does not change the layer.

  The input `[4, 2048, 4096]` viewed as a matrix of 8192 rows (row `r = b·2048 + t`), the bias viewed as a `[1, 11008]`
  row, the layer computed over rows, and the `[8192, 11008]` result viewed again as `[4, 2048, 11008]`: entry `(b, t, o)`
  is the inner product of input row `(b, t)` with weight row `o`, plus the bias of `o` — the layer over the three-axis
  input.  Row-major, the reshapes only rename positions.
-/
import proofs.«142829_j4964982194264_1_alg».proof.Proof.Dequant
import proofs.«142829_j4964982194264_1_alg».proof.Proof.LibReshapeRows
import Idealize.ShloMosaic.Lib.ValueLayout

noncomputable section

open scoped BigOperators

namespace Cert.QuantLinear

open Idealize.ShloMosaic Idealize.ShloMosaic.ValueIdx

/-- The row of the flattened input that holds batch `b`, position `t`. -/
def flatRow (b : Fin 4) (t : Fin 2048) : Fin 8192 := ⟨b.val * 2048 + t.val, by have := b.isLt; have := t.isLt; omega⟩

/-- The layer over the flattened operands, un-flattened, is the layer over the three-axis input. -/
theorem rows_unflattened (x : FVec Ideal ⟨3, ![4, 2048, 4096]⟩ .f32) (Q : Vec Ideal ⟨2, ![11008, 4096]⟩ .i32)
    (S : FVec Ideal ⟨2, ![11008, 32]⟩ .f32) (bias : FVec Ideal ⟨1, ![11008]⟩ .f32)
    (hx : (⟨3, ![4, 2048, 4096]⟩ : Shape).ShapeCasts ⟨2, ![8192, 4096]⟩)
    (hb : (⟨1, ![11008]⟩ : Shape).ShapeCasts ⟨2, ![1, 11008]⟩)
    (hy : (⟨2, ![8192, 11008]⟩ : Shape).ShapeCasts ⟨3, ![4, 2048, 11008]⟩) :
    shapeCast ⟨3, ![4, 2048, 11008]⟩
        (rows (shapeCast ⟨2, ![8192, 4096]⟩ x hx) Q S (shapeCast ⟨2, ![1, 11008]⟩ bias hb)) hy
      = linear x Q S bias := by
  funext i
  obtain ⟨b, t, o, rfl⟩ : ∃ (b : Fin 4) (t : Fin 2048) (o : Fin 11008), i = ix3 b t o := ⟨i 0, i 1, i 2, eq_ix3 i⟩
  rw [Cert.ReshapeRows.split_apply _ hy b t o (flatRow b t) rfl, rows_apply, linear_apply]
  unfold rowsAt linearAt
  rw [shapeCast_a_1a_apply bias hb (0 : Fin 1) o]
  refine congrArg (· + bias (ix1 o)) (Finset.sum_congr rfl fun l _ => ?_)
  rw [Cert.ReshapeRows.merge_apply x hx (flatRow b t) l b t rfl]

end Cert.QuantLinear

end
-- ==== Proof.Whole.lean ====
/-
  The kernel's program, start to end.

  Before the region the program flattens the input `[4, 2048, 4096]` to a matrix of 8192 rows and views the bias as a
  `[1, 11008]` row; the weight and the scales reach the region as launched.  The region leaves the layer over rows of
  those four arrays.  After the region the program views the `[8192, 11008]` result as `[4, 2048, 11008]`.  Row-major,
  the three reshapes only rename positions (row `r = 2048 b + t`), so the program's result is the layer over the
  three-axis input.
-/
import proofs.«142829_j4964982194264_1_alg».proof.Proof.Region
import proofs.«142829_j4964982194264_1_alg».proof.Proof.Flatten
import Idealize.ShloMosaic.Lib.StableHlo.Run

noncomputable section

namespace Cert.KernelIdeal.Whole

open Cert.KernelIdeal Cert.KernelIdeal.Gen Idealize.ShloMosaic Idealize.ShloMosaic.TcCoe Idealize.SL.Sem
open Idealize.ShloMosaic.ValueIdx Cert.QuantLinear
open Idealize.ShloMosaic.Pipeline (Dat)

variable (m : (ℓ : Loc nD τ sig) → Buf (Elt Ideal) ℓ) (ρ : Dev nD → PrngReg)

/-- The region finds the input flattened to 8192 rows. -/
theorem found_input (c : Dev nD) :
    (V m c main_v0 : Vec Ideal S8192x4096 .f32)
      = shapeCast S8192x4096 (m ((c : Thread nD τ).loc main_arg0)) shapeCasts_S4x2048x4096_S8192x4096 := by
  show StableHlo.after hostOps0 (fun b => m (c, b)) (Proc.devRef .tc main_v0) = _
  after_results
  rfl

/-- The region finds the bias as a one-row matrix. -/
theorem found_bias (c : Dev nD) :
    (V m c main_v1 : Vec Ideal S1x11008 .f32)
      = shapeCast S1x11008 (m ((c : Thread nD τ).loc main_arg3)) shapeCasts_S11008_S1x11008 := by
  show StableHlo.after hostOps0 (fun b => m (c, b)) (Proc.devRef .tc main_v1) = _
  after_results
  rfl

/-- The program's result buffer after the line that follows the region: the region's result array, un-flattened. -/
theorem result_tail (c : Dev nD) :
    Pipeline.afterTail₀ cfgs (dats m) 0 (V0 m) [hostOps1] c main_v3
      = shapeCast S4x2048x11008 ((dats m 0 c).arrAt 4 cfg0.N) shapeCasts_S8192x11008_S4x2048x11008 := by
  unfold Pipeline.afterTail₀
  show StableHlo.after hostOps1 _ (Proc.devRef .tc main_v3) = _
  after_results
  exact congrArg (fun y => shapeCast S4x2048x11008 y shapeCasts_S8192x11008_S4x2048x11008)
    (Pipeline.withArrays_arr spec0 launch0.win.arr_inj c (V0 m c) (fun w => (dats m 0 c).arrAt w cfg0.N) 4)

/-- THE PROGRAM'S RESULT is the layer of the arguments as launched. -/
theorem result_value (c : Dev nD) :
    Pipeline.afterTail₀ cfgs (dats m) 0 (V0 m) [hostOps1] c main_v3
      = linear (m ((c : Thread nD τ).loc main_arg0)) (m ((c : Thread nD τ).loc main_arg1))
          (m ((c : Thread nD τ).loc main_arg2)) (m ((c : Thread nD τ).loc main_arg3)) := by
  rw [result_tail, Region.result_array]
  show shapeCast S4x2048x11008 (rows (V m c main_v0) (V m c main_arg1) (V m c main_arg2) (V m c main_v1)) _ = _
  rw [found_input, found_bias, V_main_arg1, V_main_arg2]
  exact rows_unflattened _ _ _ _ _ _ _

/-- The run, read: the result buffer at the layer of the arguments, the arguments unchanged. -/
theorem run : θ_run defs (onTc (τ := τ) (main (F := Ideal))) ⟨m, fun _ => 0, ρ⟩ fun r => ∀ c : Dev nD,
      r.2.mem ((c.tc : Thread nD τ).loc main_v3)
          = linear (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v3 (Pipeline.mem_restRefs_of main_v3 (by decide) (by decide))).trans (result_value m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c)⟩)
    (run_main m ρ)

end Cert.KernelIdeal.Whole

end
-- ==== Proof.Reference.lean ====
/-
  The reference computes the layer.

  The reference dequantizes the whole weight — the stored integers viewed in groups of 128 lanes, converted to reals,
  multiplied with the scales repeated along each group, the groups merged again — contracts the input's last axis with
  the weight's lane axis, and adds the bias repeated over batch and position.  Read one operation at a time
  at an entry `(b, t, o)`, that is  Σ_l x (b, t, l) · (q (o, l) · s (o, l / 128)) + bias (o):  the reshapes and broadcasts
  only rename positions, and the one arithmetic fact used is that lane `l` of row `o` sits at row-major position
  `4096 o + l`, whose group is `l / 128`.
-/
import proofs.«142829_j4964982194264_1_alg».proof.Proof.Gen.ReferenceIdeal.Read
import proofs.«142829_j4964982194264_1_alg».proof.Proof.Dequant

noncomputable section

open scoped BigOperators

namespace Cert.ReferenceIdeal.RefValue

open Cert.ReferenceIdeal Cert.ReferenceIdeal.Gen Cert.ReferenceIdeal.Read
open Idealize.ShloMosaic Idealize.ShloMosaic.ValueIdx Cert.QuantLinear

/-- The reference's dequantized weight at `(o, l)`. -/
theorem weight_apply (Q : Vec Ideal S11008x4096 .i32) (S : Vec Ideal S11008x32 .f32) (o : Fin 11008) (l : Fin 4096) :
    val_main_v5 (F := Ideal) Q S (ix2 o l) = weight Q S o l := by
  have hl := l.isLt
  have ho := o.isLt
  have e0 : idx_main_v0 (idx_main_v5 (ix2 o l)) = ix2 o l := funext fun a => Fin.ext (by
    match a with
    | ⟨0, _⟩ =>
      show (((o.val * 4096 + l.val) / 4096 * 32 + (o.val * 4096 + l.val) / 128 % 32) * 128
        + (o.val * 4096 + l.val) % 128) / 4096 = o.val
      omega
    | ⟨1, _⟩ =>
      show (((o.val * 4096 + l.val) / 4096 * 32 + (o.val * 4096 + l.val) / 128 % 32) * 128
        + (o.val * 4096 + l.val) % 128) % 4096 = l.val
      omega)
  have e2 : idx_main_v2 (idx_main_v3 (idx_main_v5 (ix2 o l))) = ix2 o (grp l) := funext fun a => Fin.ext (by
    match a with
    | ⟨0, _⟩ => show (o.val * 4096 + l.val) / 4096 = o.val; omega
    | ⟨1, _⟩ => show (o.val * 4096 + l.val) / 128 % 32 = l.val / 128; omega)
  rw [val_main_v5_apply, val_main_v4_apply, val_main_v1_apply, val_main_v0_apply, val_main_v3_apply, val_main_v2_apply,
    e0, e2]
  rfl

/-- THE REFERENCE'S RESULT is the layer. -/
theorem result_eq (x : Vec Ideal S4x2048x4096 .f32) (Q : Vec Ideal S11008x4096 .i32) (S : Vec Ideal S11008x32 .f32)
    (bias : Vec Ideal S11008 .f32) :
    val_main_v9 (F := Ideal) x Q S bias = linear x Q S bias := by
  funext i
  obtain ⟨b, t, o, rfl⟩ : ∃ (b : Fin 4) (t : Fin 2048) (o : Fin 11008), i = ix3 b t o := ⟨i 0, i 1, i 2, eq_ix3 i⟩
  rw [val_main_v9_apply, val_main_v6_apply, val_main_v8_apply, val_main_v7_apply, linear_apply]
  unfold linearAt
  have eb : idx_main_v7 (idx_main_v8 (ix3 b t o)) = ix1 o := funext fun a => Fin.ext (by
    match a with
    | ⟨0, _⟩ => rfl)
  rw [eb]
  show (∑ l : Fin 4096, _) + bias (ix1 o) = _
  refine congrArg (· + bias (ix1 o)) (Finset.sum_congr rfl fun l _ => ?_)
  have el : lidx_main_v6 (ix3 b t o) l = ix3 b t l := funext fun a => Fin.ext (by
    match a with
    | ⟨0, _⟩ => rfl
    | ⟨1, _⟩ => rfl
    | ⟨2, _⟩ => rfl)
  have er : ridx_main_v6 (ix3 b t o) l = ix2 o l := funext fun a => Fin.ext (by
    match a with
    | ⟨0, _⟩ => rfl
    | ⟨1, _⟩ => rfl)
  rw [el, er, weight_apply]

end Cert.ReferenceIdeal.RefValue

end
-- ==== Proof.lean ====
/-
  A weight-only quantized linear layer against its plain reference, on the extended reals.

  The weight `[11008, 4096]` is stored as integers with one scale per output row and per group of 128 input lanes;
  dequantized, `w (o, l) = q (o, l) · s (o, l / 128)`, and the layer is
      y (b, t, o) = Σ_l x (b, t, l) · w (o, l) + bias (o)        over x : [4, 2048, 4096].
  The kernel flattens batch and position to 8192 rows and tiles the `[8192, 11008]` result in 16 × 43 blocks of
  512 × 256: each grid point dequantizes its 256 weight rows, multiplies its 512 input rows with their transpose into
  a zero accumulator (the operands rounded to a narrower float format on the way in — the identity at the exact
  instance), adds its 256 bias entries to every row and writes the block back; the result is un-flattened after the
  region.  The reference dequantizes the whole weight and contracts the input's last axis with it in one product.
  At the exact instance both are the same sum, term for term: no law of the extended reals beyond reading each side
  at an entry is used, so the finiteness of the inputs is not needed, and the sanctioned idealization rewrote nothing.
  * Proof/Dequant.lean   — the layer as one function of the four arguments (`linear`, and `rows` over flattened rows);
  * Proof/Flatten.lean   — flattening and un-flattening only rename positions;
  * Proof/Block.lean     — what one grid point stores, at an entry;
  * Proof/Region.lean    — the blocks are restrictions of one function and tile the result;
  * Proof/Whole.lean     — the host lines around the region, and the kernel's run;
  * Proof/Reference.lean — the reference's result, read one operation at a time, is the layer;
  * Proof/LibLaneGroups.lean, LibRowProducts.lean, LibReshapeRows.lean — general lemmas on grouped lanes, on a product
    with a transposed operand, and on merging two leading axes.
-/
import proofs.«142829_j4964982194264_1_alg».proof.Defs
import proofs.«142829_j4964982194264_1_alg».proof.Proof.Gen.Kernel
import proofs.«142829_j4964982194264_1_alg».proof.Proof.Gen.Kernel.Skeleton
import proofs.«142829_j4964982194264_1_alg».proof.Proof.Gen.Kernel.Launch
import proofs.«142829_j4964982194264_1_alg».proof.Proof.Gen.Kernel.Points
import proofs.«142829_j4964982194264_1_alg».proof.Proof.Gen.Kernel.Frame
import proofs.«142829_j4964982194264_1_alg».proof.Proof.Gen.KernelIdeal
import proofs.«142829_j4964982194264_1_alg».proof.Proof.Gen.KernelIdeal.Skeleton
import proofs.«142829_j4964982194264_1_alg».proof.Proof.Gen.KernelIdeal.Launch
import proofs.«142829_j4964982194264_1_alg».proof.Proof.Gen.KernelIdeal.Points
import proofs.«142829_j4964982194264_1_alg».proof.Proof.Gen.KernelIdeal.Frame
import proofs.«142829_j4964982194264_1_alg».proof.Proof.Gen.ReferenceIdeal
import proofs.«142829_j4964982194264_1_alg».proof.Proof.Gen.ReferenceIdeal.Run
import proofs.«142829_j4964982194264_1_alg».proof.Proof.Gen.ReferenceIdeal.Read
import proofs.«142829_j4964982194264_1_alg».proof.Proof.Gen.Pre_finite_inputs
import Idealize.ShloMosaic.Adequacy
import Idealize.ShloMosaic.Init
import proofs.«142829_j4964982194264_1_alg».proof.Proof.Whole
import proofs.«142829_j4964982194264_1_alg».proof.Proof.Reference

noncomputable section

namespace Cert.Proof

open Idealize.ShloMosaic Idealize.SL.Sem Cert.QuantLinear

/-- The kernel as printed terminates without fault and leaves its arguments unchanged. -/
theorem frame_kernel : Cert.frame_Kernel := fun m ρ _ => Cert.Kernel.Gen.frame m ρ

/-- So does its idealization. -/
theorem frame_ideal : Cert.frame_KernelIdeal := fun m ρ _ => Cert.KernelIdeal.Gen.frame m ρ

/-- The reference is a straight line of host operations: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization is the kernel's own text read at the exact instance: nothing was rewritten. -/
theorem preserves : Cert.preserves_Kernel_KernelIdeal := trivial

/-- Both programs end with the layer of their arguments, and the arguments agree. -/
theorem algebraic : Cert.algebraic_KernelIdeal_ReferenceIdeal := by
  intro m ρ m' ρ' _ hagree
  refine ⟨fun c => linear (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v9_eq, Cert.ReferenceIdeal.RefValue.result_eq, (hagree c).1, (hagree c).2.1,
    (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
